-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S64x128 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S64x128 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S128x64 : Shape := ⟨2, ![128, 64]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 96
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S50000x128, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S128x128, .f32⟩
  | .hbm, ⟨36, _⟩ => ⟨S1x128, .f32⟩
  | .hbm, ⟨37, _⟩ => ⟨S50000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S_, .f32⟩
  | .hbm, ⟨52, _⟩ => ⟨S800000, .f32⟩
  | .hbm, ⟨53, _⟩ => ⟨S_, .f32⟩
  | .hbm, ⟨54, _⟩ => ⟨S50000, .f32⟩
  | .hbm, ⟨55, _⟩ => ⟨S800000x1, .i32⟩
  | .hbm, ⟨56, _⟩ => ⟨S50000, .f32⟩
  | .hbm, ⟨57, _⟩ => ⟨S50000x128, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S128x128, .f32⟩
  | .hbm, ⟨65, _⟩ => ⟨S1x128, .f32⟩
  | .hbm, ⟨66, _⟩ => ⟨S50000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S_, .f32⟩
  | .hbm, ⟨81, _⟩ => ⟨S800000, .f32⟩
  | .hbm, ⟨82, _⟩ => ⟨S_, .f32⟩
  | .hbm, ⟨83, _⟩ => ⟨S50000, .f32⟩
  | .hbm, ⟨84, _⟩ => ⟨S800000x1, .i32⟩
  | .hbm, ⟨85, _⟩ => ⟨S50000, .f32⟩
  | .hbm, ⟨86, _⟩ => ⟨S50000x128, .f32⟩
  | .hbm, ⟨87, _⟩ => ⟨S_, .f32⟩
  | .hbm, ⟨88, _⟩ => ⟨S50000, .f32⟩
  | .hbm, ⟨89, _⟩ => ⟨S50000, .f32⟩
  | .hbm, ⟨90, _⟩ => ⟨S50000x1, .f32⟩
  | .hbm, ⟨91, _⟩ => ⟨S50000x128, .f32⟩
  | .hbm, ⟨92, _⟩ => ⟨S50000x128, .f32⟩
  | .hbm, ⟨93, _⟩ => ⟨S128x64, .f32⟩
  | .hbm, ⟨94, _⟩ => ⟨S1x64, .f32⟩
  | .hbm, ⟨95, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_c_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_cst_14 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_15 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v19) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v65) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 116
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S50000x128, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S128x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S50000x128, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S128x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x128, .f32⟩
  | .hbm, ⟨86, _⟩ => ⟨S_, .f32⟩
  | .hbm, ⟨87, _⟩ => ⟨S50000x128, .f32⟩
  | .hbm, ⟨88, _⟩ => ⟨S800000x1, .i32⟩
  | .hbm, ⟨89, _⟩ => ⟨S50000x128, .f32⟩
  | .hbm, ⟨90, _⟩ => ⟨S_, .f32⟩
  | .hbm, ⟨91, _⟩ => ⟨S800000, .f32⟩
  | .hbm, ⟨92, _⟩ => ⟨S_, .f32⟩
  | .hbm, ⟨93, _⟩ => ⟨S50000, .f32⟩
  | .hbm, ⟨94, _⟩ => ⟨S800000x1, .i32⟩
  | .hbm, ⟨95, _⟩ => ⟨S50000, .f32⟩
  | .hbm, ⟨96, _⟩ => ⟨S50000x128, .f32⟩
  | .hbm, ⟨97, _⟩ => ⟨S_, .f32⟩
  | .hbm, ⟨98, _⟩ => ⟨S50000, .f32⟩
  | .hbm, ⟨99, _⟩ => ⟨S50000, .f32⟩
  | .hbm, ⟨100, _⟩ => ⟨S50000x1, .f32⟩
  | .hbm, ⟨101, _⟩ => ⟨S50000x128, .f32⟩
  | .hbm, ⟨102, _⟩ => ⟨S50000x128, .f32⟩
  | .hbm, ⟨103, _⟩ => ⟨S128x64, .f32⟩
  | .hbm, ⟨104, _⟩ => ⟨S50000x64, .f32⟩
  | .hbm, ⟨105, _⟩ => ⟨S1x64, .f32⟩
  | .hbm, ⟨106, _⟩ => ⟨S50000x64, .f32⟩
  | .hbm, ⟨107, _⟩ => ⟨S50000x64, .f32⟩
  | .hbm, ⟨108, _⟩ => ⟨S50000x64, .f32⟩
  | .hbm, ⟨109, _⟩ => ⟨S50000x64, .f32⟩
  | .hbm, ⟨110, _⟩ => ⟨S_, .f32⟩
  | .hbm, ⟨111, _⟩ => ⟨S50000x64, .f32⟩
  | .hbm, ⟨112, _⟩ => ⟨S50000x64, .f32⟩
  | .hbm, ⟨113, _⟩ => ⟨S_, .f32⟩
  | .hbm, ⟨114, _⟩ => ⟨S50000x64, .f32⟩
  | .hbm, ⟨115, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_c_10 : Ref sig .tc := ⟨.hbm, 77, rfl⟩
abbrev main_v52 : Ref sig .tc := ⟨.hbm, 78, rfl⟩
abbrev main_v53 : Ref sig .tc := ⟨.hbm, 79, rfl⟩
abbrev main_c_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_cst_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_15 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_v80 : Ref sig .tc := ⟨.hbm, 112, rfl⟩
abbrev main_cst_17 : Ref sig .tc := ⟨.hbm, 113, rfl⟩
abbrev main_v81 : Ref sig .tc := ⟨.hbm, 114, rfl⟩
abbrev main_v82 : Ref sig .tc := ⟨.hbm, 115, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The kernel program's run with its RESULT read: every weakly fair execution of @main terminates, and in the
  final state the result buffer holds what the last boundary's valuation `W6` assigns to it, the arguments as
  launched.  The run is the three regions among their stretches of host operations; at the end every unscoped
  buffer of a core holds `W6`'s contents, and the result buffer is one of them.
-/
import proofs.«129602_j9723805958531_1_alg».proof.Proof.Gen.KernelIdeal.Frame

set_option maxRecDepth 16384

noncomputable section

namespace Cert.Sage.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main from any memory with zero counters: it terminates, the result buffer ends at `W6`'s
    contents for it, and every argument array ends as launched. -/
theorem run_out : θ_run defs (onTc (τ := τ) (main (F := F))) ⟨m, fun _ => 0, ρ⟩ (fun r => ∀ c : Dev nD,
      r.2.mem ((c.tc : Thread nD τ).loc main_v68) = W6 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v68 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.Sage.KRun

end
-- ==== Proof.Spec.lean ====
/-
  The network both programs compute, as whole-array functions of the arguments.

  One layer is: replace every node's feature row by the mean over the node itself and its in-neighbours
  (`mean`: the sum over the edges `e` with `dst e = v` of row `src e`, plus row `v`, divided by the in-degree
  plus one), then a dense map `h · Wᵀ + b` followed by `max(·, 0)` (`reluLayer`) or by the logistic function
  `1 / (1 + e^(-z))` (`sigLayer`).  Three layers are composed (`net`).

  The dense layers take the weight already transposed (`wt`, contraction axis first) and the bias as a
  one-row matrix (`brow`): that is what both programs hand to them.
-/
import proofs.«129602_j9723805958531_1_alg».proof.ReferenceIdeal
import Idealize.ShloMosaic.PureOps.Ideal
import Idealize.ShloMosaic.PureOps.Ideal.Laws
import Idealize.ShloMosaic.Lib.ValueIdx
import Idealize.ShloMosaic.Lib.Pipeline.Value

noncomputable section

namespace Cert.Sage

open Idealize.ShloMosaic Idealize.ShloMosaic.TcCoe Cert.ReferenceIdeal
open Cert.ReferenceIdeal.Facts₀ Cert.ReferenceIdeal.Facts

variable {F : FTy → Type} [FloatOps F] [Cert.ReferenceIdeal.Facts]

/-- Mean aggregation with a self loop: row `v` of the result is (the sum of the rows `h[src e]` over the edges
    `e` into `v`, plus `h[v]`) divided by (the number of edges into `v`, plus one).  A negative source index
    is first wrapped by adding the number of nodes. -/
def mean (h : (⟨S50000x128, .f32⟩ : BufTy).Contents (Elt F)) (src dst : (⟨S800000, .i32⟩ : BufTy).Contents (Elt F)) :
    (⟨S50000x128, .f32⟩ : BufTy).Contents (Elt F) :=
  Host.divf
    (addf (Host.scatterAdd scatter_S50000x128_S800000x1_S800000x128_1_0_0_1
        (broadcastInDim S50000x128 ![] bcast_S_S50000x128 (constant S_ .f32 0x00000000#32))
        (broadcastInDim S800000x1 ![0] bcast_S800000_S800000x1_0 dst)
        (Host.gather gather_S50000x128_S800000x1_S800000x128_1_0_n_n_0_1_1128 h
          (broadcastInDim S800000x1 ![0] bcast_S800000_S800000x1_0
            (select (cmpi .slt src (broadcastInDim S800000 ![] bcast_S_S800000 (constantI S_ 32 0#32)))
              (addi src (broadcastInDim S800000 ![] bcast_S_S800000 (constantI S_ 32 50000#32))) src))))
      h)
    (broadcastInDim S50000x128 ![0, 1] bcast_S50000x1_S50000x128_0_1
      (broadcastInDim S50000x1 ![0] bcast_S50000_S50000x1_0
        (addf (Host.scatterAdd scatter_S50000_S800000x1_S800000_n_0_0_1
            (broadcastInDim S50000 ![] bcast_S_S50000 (constant S_ .f32 0x00000000#32))
            (broadcastInDim S800000x1 ![0] bcast_S800000_S800000x1_0 dst)
            (broadcastInDim S800000 ![] bcast_S_S800000 (constant S_ .f32 0x3F800000#32)))
          (broadcastInDim S50000 ![] bcast_S_S50000 (constant S_ .f32 0x3F800000#32)))))

/-- A dense layer into 128 features followed by `max(·, 0)`: entry `(p, q)` is
    `max (Σ_k h[p,k] · wt[k,q] + brow[0,q], 0)`. -/
def reluLayer (h : (⟨S50000x128, .f32⟩ : BufTy).Contents (Elt F)) (wt : (⟨S128x128, .f32⟩ : BufTy).Contents (Elt F))
    (brow : (⟨S1x128, .f32⟩ : BufTy).Contents (Elt F)) : (⟨S50000x128, .f32⟩ : BufTy).Contents (Elt F) :=
  maximumf
    (addf (Host.dotGeneral dot_S50000x128_S128x128_S50000x128_1_0_0_1_n_n none h wt)
      (broadcastInDim S50000x128 ![0, 1] bcast_S1x128_S50000x128_0_1 brow))
    (broadcastInDim S50000x128 ![] bcast_S_S50000x128 (constant S_ .f32 0x00000000#32))

/-- A dense layer into 64 features followed by the logistic function written out:
    entry `(p, q)` is `1 / (1 + exp (-(Σ_k h[p,k] · wt[k,q] + brow[0,q])))`. -/
def sigLayer (h : (⟨S50000x128, .f32⟩ : BufTy).Contents (Elt F)) (wt : (⟨S128x64, .f32⟩ : BufTy).Contents (Elt F))
    (brow : (⟨S1x64, .f32⟩ : BufTy).Contents (Elt F)) : (⟨S50000x64, .f32⟩ : BufTy).Contents (Elt F) :=
  Host.divf (broadcastInDim S50000x64 ![] bcast_S_S50000x64 (constant S_ .f32 0x3F800000#32))
    (addf (broadcastInDim S50000x64 ![] bcast_S_S50000x64 (constant S_ .f32 0x3F800000#32))
      (Host.exp (Host.negf
        (addf (Host.dotGeneral dot_S50000x128_S128x64_S50000x64_1_0_0_1_n_n none h wt)
          (broadcastInDim S50000x64 ![0, 1] bcast_S1x64_S50000x64_0_1 brow)))))

/-- The three layers composed. -/
def net (x : (⟨S50000x128, .f32⟩ : BufTy).Contents (Elt F)) (src dst : (⟨S800000, .i32⟩ : BufTy).Contents (Elt F))
    (wt1 : (⟨S128x128, .f32⟩ : BufTy).Contents (Elt F)) (br1 : (⟨S1x128, .f32⟩ : BufTy).Contents (Elt F))
    (wt2 : (⟨S128x128, .f32⟩ : BufTy).Contents (Elt F)) (br2 : (⟨S1x128, .f32⟩ : BufTy).Contents (Elt F))
    (wt3 : (⟨S128x64, .f32⟩ : BufTy).Contents (Elt F)) (br3 : (⟨S1x64, .f32⟩ : BufTy).Contents (Elt F)) :
    (⟨S50000x64, .f32⟩ : BufTy).Contents (Elt F) :=
  sigLayer (mean (reluLayer (mean (reluLayer (mean x src dst) wt1 br1) src dst) wt2 br2) src dst) wt3 br3

end Cert.Sage

end
-- ==== Proof.LayerAt.lean ====
/-
  The dense layers of `Cert.Sage` read at an entry, on the extended reals.

  On the extended reals the host's `dot_general` of an [n,128] by a [128,c] operand is the plain sum over the
  contracted axis, and the two broadcasts (the bias row down the rows; the scalar constant over the array) read
  their operand at the evident entry.  So entry `(p, q)` of a layer is the activation applied to
  `Σ_k h[p,k] · wt[k,q] + brow[0,q]`.
-/
import proofs.«129602_j9723805958531_1_alg».proof.Proof.Spec
import proofs.«129602_j9723805958531_1_alg».proof.Proof.Gen.ReferenceIdeal.Read
import Idealize.ShloMosaic.Lib.IdealHost

noncomputable section

namespace Cert.Sage

open Idealize.ShloMosaic Idealize.ShloMosaic.TcCoe Idealize.ShloMosaic.ValueIdx Cert.ReferenceIdeal
open Cert.ReferenceIdeal.Facts₀ Cert.ReferenceIdeal.Facts

variable [Cert.ReferenceIdeal.Facts]

/-- The product of an [50000,128] by a [128,128] operand at `(p, q)`: the sum over `k` of `h[p,k] · wt[k,q]`. -/
theorem dot128_apply (h : (⟨S50000x128, .f32⟩ : BufTy).Contents (Elt Ideal)) (wt : (⟨S128x128, .f32⟩ : BufTy).Contents (Elt Ideal))
    (p : Fin 50000) (q : Fin 128) :
    Host.dotGeneral (F := Ideal) (φ₁ := .f32) (φ₂ := .f32) dot_S50000x128_S128x128_S50000x128_1_0_0_1_n_n none h wt (ix2 p q)
      = ∑ k : Fin 128, h (ix2 p k) * wt (ix2 k q) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 p q) ((ValueIdx.contrEquiv1 dot_S50000x128_S128x128_S50000x128_1_0_0_1_n_n 128 rfl rfl).symm k) = ix2 p k := funext fun a => Fin.ext (by
    match a with
    | ⟨0, _⟩ => exact Cert.ReferenceIdeal.Read.lhs_main_v21_0 _ _
    | ⟨1, _⟩ => exact (Cert.ReferenceIdeal.Read.lhs_main_v21_1 _ _).trans hk)
  have er : dot_S50000x128_S128x128_S50000x128_1_0_0_1_n_n.rhsIdx (ix2 p q) ((ValueIdx.contrEquiv1 dot_S50000x128_S128x128_S50000x128_1_0_0_1_n_n 128 rfl rfl).symm k) = ix2 k q := funext fun a => Fin.ext (by
    match a with
    | ⟨0, _⟩ => exact (Cert.ReferenceIdeal.Read.rhs_main_v21_0 _ _).trans hk
    | ⟨1, _⟩ => exact Cert.ReferenceIdeal.Read.rhs_main_v21_1 _ _)
  rw [el, er]

/-- The product of an [50000,128] by a [128,64] operand at `(p, q)`. -/
theorem dot64_apply (h : (⟨S50000x128, .f32⟩ : BufTy).Contents (Elt Ideal)) (wt : (⟨S128x64, .f32⟩ : BufTy).Contents (Elt Ideal))
    (p : Fin 50000) (q : Fin 64) :
    Host.dotGeneral (F := Ideal) (φ₁ := .f32) (φ₂ := .f32) dot_S50000x128_S128x64_S50000x64_1_0_0_1_n_n none h wt (ix2 p q)
      = ∑ k : Fin 128, h (ix2 p k) * wt (ix2 k q) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx (ix2 p q) ((ValueIdx.contrEquiv1 dot_S50000x128_S128x64_S50000x64_1_0_0_1_n_n 128 rfl rfl).symm k) = ix2 p k := funext fun a => Fin.ext (by
    match a with
    | ⟨0, _⟩ => exact Cert.ReferenceIdeal.Read.lhs_main_v73_0 _ _
    | ⟨1, _⟩ => exact (Cert.ReferenceIdeal.Read.lhs_main_v73_1 _ _).trans hk)
  have er : dot_S50000x128_S128x64_S50000x64_1_0_0_1_n_n.rhsIdx (ix2 p q) ((ValueIdx.contrEquiv1 dot_S50000x128_S128x64_S50000x64_1_0_0_1_n_n 128 rfl rfl).symm k) = ix2 k q := funext fun a => Fin.ext (by
    match a with
    | ⟨0, _⟩ => exact (Cert.ReferenceIdeal.Read.rhs_main_v73_0 _ _).trans hk
    | ⟨1, _⟩ => exact Cert.ReferenceIdeal.Read.rhs_main_v73_1 _ _)
  rw [el, er]

/-- A one-row matrix broadcast down 50000 rows, at `(p, q)`: the row's entry `q`. -/
theorem biasRows128_apply (brow : (⟨S1x128, .f32⟩ : BufTy).Contents (Elt Ideal)) (p : Fin 50000) (q : Fin 128) :
    broadcastInDim S50000x128 ![0, 1] bcast_S1x128_S50000x128_0_1 brow (ix2 p q) = brow (ix2 (0 : Fin 1) q) :=
  broadcastInDim_apply _ bcast_S1x128_S50000x128_0_1 brow (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

theorem biasRows64_apply (brow : (⟨S1x64, .f32⟩ : BufTy).Contents (Elt Ideal)) (p : Fin 50000) (q : Fin 64) :
    broadcastInDim S50000x64 ![0, 1] bcast_S1x64_S50000x64_0_1 brow (ix2 p q) = brow (ix2 (0 : Fin 1) q) :=
  broadcastInDim_apply _ bcast_S1x64_S50000x64_0_1 brow (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-- Entry `(p, q)` of the layer with `max(·, 0)`. -/
theorem reluLayer_apply (h : (⟨S50000x128, .f32⟩ : BufTy).Contents (Elt Ideal)) (wt : (⟨S128x128, .f32⟩ : BufTy).Contents (Elt Ideal))
    (brow : (⟨S1x128, .f32⟩ : BufTy).Contents (Elt Ideal)) (p : Fin 50000) (q : Fin 128) :
    reluLayer (F := Ideal) h wt brow (ix2 p q)
      = FloatOps.maximumf (F := Ideal) (φ := .f32)
          (FloatOps.addf (F := Ideal) (φ := .f32) (∑ k : Fin 128, h (ix2 p k) * wt (ix2 k q)) (brow (ix2 (0 : Fin 1) q)))
          (FloatOps.ofBits (F := Ideal) .f32 0x00000000#32) := by
  unfold reluLayer
  show FloatOps.maximumf (FloatOps.addf (Host.dotGeneral (F := Ideal) (φ₁ := .f32) (φ₂ := .f32) dot_S50000x128_S128x128_S50000x128_1_0_0_1_n_n none h wt (ix2 p q))
      (broadcastInDim S50000x128 ![0, 1] bcast_S1x128_S50000x128_0_1 brow (ix2 p q))) _ = _
  rw [dot128_apply, biasRows128_apply]
  rfl

/-- Entry `(p, q)` of the layer with the logistic function written out. -/
theorem sigLayer_apply (h : (⟨S50000x128, .f32⟩ : BufTy).Contents (Elt Ideal)) (wt : (⟨S128x64, .f32⟩ : BufTy).Contents (Elt Ideal))
    (brow : (⟨S1x64, .f32⟩ : BufTy).Contents (Elt Ideal)) (p : Fin 50000) (q : Fin 64) :
    sigLayer (F := Ideal) h wt brow (ix2 p q)
      = FloatOps.logistic (F := Ideal) (φ := .f32)
          (FloatOps.addf (F := Ideal) (φ := .f32) (∑ k : Fin 128, h (ix2 p k) * wt (ix2 k q)) (brow (ix2 (0 : Fin 1) q))) := by
  unfold sigLayer
  show FloatOps.hostDivf _ (FloatOps.addf _ (FloatOps.hostUnary .exp (FloatOps.hostNegf (FloatOps.addf
      (Host.dotGeneral (F := Ideal) (φ₁ := .f32) (φ₂ := .f32) dot_S50000x128_S128x64_S50000x64_1_0_0_1_n_n none h wt (ix2 p q))
      (broadcastInDim S50000x64 ![0, 1] bcast_S1x64_S50000x64_0_1 brow (ix2 p q)))))) = _
  rw [dot64_apply, biasRows64_apply]
  show FloatOps.hostDivf (F := Ideal) (φ := .f32) (Ideal.ofBits .f32 0x3F800000#32)
      (FloatOps.addf (F := Ideal) (φ := .f32) (Ideal.ofBits .f32 0x3F800000#32) _) = _
  rw [Ideal.ofBits_one_f32]
  rfl

end Cert.Sage

end
-- ==== Proof.Region0.lean ====
/-
  What the first kernel region leaves in its output array, on the extended reals.

  The region runs a grid of ten points.  At point `t` the body loads rows `5000 t … 5000 t + 4999` of the activation
  array (%19), the whole transposed weight (%20) and the one-row bias (%21), and stores
  the maximum with zero of `Σ_k x[p,k] · w[k,q] + b[0,q]` at every entry `(p, q)` of its block of the output array (%22);
  the change of float format before the product is the identity here and the product into a zero accumulator is the
  plain sum.  The ten blocks tile the 50000 rows, so the output array ends as the dense layer of `Cert.Sage`
  applied to the three input arrays as the region found them — whatever those are (`V` is a parameter).
-/
import proofs.«129602_j9723805958531_1_alg».proof.Proof.Gen.KernelIdeal.Frame
import proofs.«129602_j9723805958531_1_alg».proof.Proof.LayerAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Sage.Region0

open Idealize.ShloMosaic Idealize.ShloMosaic.TcCoe Idealize.ShloMosaic.ValueIdx Idealize.SL.Sem
open Cert.KernelIdeal Cert.KernelIdeal.Gen
open Idealize.ShloMosaic.Pipeline (Dat Cfg Window)

/-! ## The body's matrix product at an entry -/

theorem lhs0 (i : S5000x128.Idx) (r : dot_S5000x128_S128x128_S5000x128_1_0_0_1_n_n.contr.Idx) : (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1 (i : S5000x128.Idx) (r : dot_S5000x128_S128x128_S5000x128_1_0_0_1_n_n.contr.Idx) : (dot_S5000x128_S128x128_S5000x128_1_0_0_1_n_n.lhsIdx i r 1).val = (r ⟨0, by decide⟩).val :=
  dot_S5000x128_S128x128_S5000x128_1_0_0_1_n_n.lhsIdx_val_of_single rfl i r
theorem rhs0 (i : S5000x128.Idx) (r : dot_S5000x128_S128x128_S5000x128_1_0_0_1_n_n.contr.Idx) : (dot_S5000x128_S128x128_S5000x128_1_0_0_1_n_n.rhsIdx i r 0).val = (r ⟨0, by decide⟩).val :=
  dot_S5000x128_S128x128_S5000x128_1_0_0_1_n_n.rhsIdx_val_of_single rfl i r
theorem rhs1 (i : S5000x128.Idx) (r : dot_S5000x128_S128x128_S5000x128_1_0_0_1_n_n.contr.Idx) : (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(p, q)` of what the body stores: `max (Σ_k x0[p,k] · x1[k,q] + x2[0,q], 0)` of the three loaded blocks. -/
theorem pay_apply (x0 : Vec Ideal S5000x128 .f32) (x1 : Vec Ideal S128x128 .f32) (x2 : Vec Ideal S1x128 .f32)
    (p : Fin 5000) (q : Fin 128) :
    k0_pay1 (F := Ideal) x0 x1 x2 (ix2 p q)
      = FloatOps.maximumf (F := Ideal) (φ := .f32)
          (FloatOps.addf (F := Ideal) (φ := .f32) (∑ k : Fin 128, x0 (ix2 p k) * x1 (ix2 k q)) (x2 (ix2 (0 : Fin 1) q)))
          (FloatOps.ofBits (F := Ideal) .f32 0x00000000#32) := by
  unfold k0_pay1
  rw [shapeCast_self, shapeCast_self, shapeCast_self]
  show FloatOps.maximumf (F := Ideal) (φ := .f32) (FloatOps.addf (F := Ideal) (φ := .f32)
      (FloatOps.matmul dot_S5000x128_S128x128_S5000x128_1_0_0_1_n_n none (truncf (F := Ideal) .bf16 x0 bitsLt_bf16_f32) (truncf (F := Ideal) .bf16 x1 bitsLt_bf16_f32)
        (constant S5000x128 .f32 0x00000000#32) (ix2 p q))
      (broadcastTo S5000x128 x2 broadcasts_S1x128_S5000x128 (ix2 p q))) _ = _
  rw [Ideal.matmul_constant_zero_apply, ValueIdx.broadcastTo_1b_ab_apply,
    ← Equiv.sum_comp (ValueIdx.contrEquiv1 dot_S5000x128_S128x128_S5000x128_1_0_0_1_n_n 128 rfl rfl).symm]
  refine congrArg (fun s => FloatOps.maximumf (F := Ideal) (φ := .f32) (FloatOps.addf (F := Ideal) (φ := .f32) s _) _) ?_
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs0 _ _
    | ⟨1, _⟩ => exact (lhs1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs0 _ _).trans hk
    | ⟨1, _⟩ => exact rhs1 _ _)
  rw [el, er]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid of ten points: the activation block and the output block move down the rows with
    the point; the weight and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the block at point `t` is row `5000 t + p` of the array. -/
def row (t : Fin cfg0.N) (p : Fin 5000) : Fin 50000 :=
  ⟨t.val * 5000 + p.val, by have ht : t.val < 10 := t.isLt; have := p.isLt; omega⟩

theorem blk0_read (c : Dev nD) (t : Fin cfg0.N) (p : Fin 5000) (k : Fin 128) :
    iblk0 V c 0 t (ix2 p k) = V c main_v19 (ix2 (row t p) k) := by
  show V c main_v19 (((cfg0.win 0).blk t).view.emb (ix2 p k)) = _
  refine congrArg (V c main_v19) ?_
  obtain ⟨e0, e1, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem blk1_read (c : Dev nD) (t : Fin cfg0.N) (k : Fin 128) (q : Fin 128) :
    iblk0 V c 1 t (ix2 k q) = V c main_v20 (ix2 k q) := by
  show V c main_v20 (((cfg0.win 1).blk t).view.emb (ix2 k q)) = _
  refine congrArg (V c main_v20) ?_
  obtain ⟨-, -, e0, e1, -⟩ := idx_facts t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

theorem blk2_read (c : Dev nD) (t : Fin cfg0.N) (q : Fin 128) :
    iblk0 V c 2 t (ix2 (0 : Fin 1) q) = V c main_v21 (ix2 (0 : Fin 1) q) := by
  show V c main_v21 (((cfg0.win 2).blk t).view.emb (ix2 (0 : Fin 1) q)) = _
  refine congrArg (V c main_v21) ?_
  obtain ⟨-, -, -, -, e0, e1, -⟩ := idx_facts t
  funext a; apply Fin.ext
  match a with
  | ⟨0, _⟩ => show win0_2.index t (0 : Fin 2) * 1 + 1 * 0 = 0; omega
  | ⟨1, _⟩ => show win0_2.index t (1 : Fin 2) * 128 + 1 * q.val = q.val; omega

theorem out_emb (t : Fin cfg0.N) (p : Fin 5000) (q : Fin 128) :
    ((cfg0.win 3).blk t).view.emb (ix2 p q) = ix2 (row t p) q := by
  obtain ⟨-, -, -, -, -, -, e0, e1⟩ := idx_facts t
  funext a; apply Fin.ext
  match a with
  | ⟨0, _⟩ => show win0_3.index t (0 : Fin 2) * 5000 + 1 * p.val = t.val * 5000 + p.val; omega
  | ⟨1, _⟩ => show win0_3.index t (1 : Fin 2) * 128 + 1 * q.val = q.val; omega

/-- What point `t` writes back is block `t` of the layer applied to the region's three input arrays. -/
theorem flushed_eq (c : Dev nD) (t : Fin cfg0.N) :
    (dat0 V c).flushed 3 t = ((cfg0.win 3).blk t).view.read (Elt Ideal)
      (Cert.Sage.reluLayer (F := Ideal) (V c main_v19) (V c main_v20) (V c main_v21)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
    = Cert.Sage.reluLayer (F := Ideal) (V c main_v19) (V c main_v20) (V c main_v21) (((cfg0.win 3).blk t).view.emb (ix2 p q))
  refine (pay_apply (iblk0 V c 0 t) (iblk0 V c 1 t) (iblk0 V c 2 t) p q).trans ?_
  rw [out_emb t p q, Cert.Sage.reluLayer_apply, blk2_read V c t q]
  refine congrArg (fun s => FloatOps.maximumf (F := Ideal) (φ := .f32) (FloatOps.addf (F := Ideal) (φ := .f32) s _) _) ?_
  refine Finset.sum_congr rfl fun k _ => ?_
  rw [blk0_read V c t p k, blk1_read V c t k q]

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v22).slice (win0_3.rect t)).set ↔ _
  rw [View.set_slice_whole, Rect.mem_set_unit]
  exact Iff.rfl

/-- The ten blocks of 5000 rows tile the 50000 rows: row `r` lies in the block of point `r / 5000`. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hlt : (i 0).val / 5000 < 10 := by omega
  obtain ⟨-, -, -, -, -, -, e0, e1⟩ := idx_facts ⟨(i 0).val / 5000, hlt⟩
  have ht : (⟨(i 0).val / 5000, hlt⟩ : Fin cfg0.N).val = (i 0).val / 5000 := rfl
  refine ⟨⟨(i 0).val / 5000, hlt⟩, flush0_3 _, ?_⟩
  rw [mem_blk]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    omega

/-- THE REGION'S RESULT: after the ten points the output array is the layer applied to the three input arrays
    as the region found them. -/
theorem array_eq (c : Dev nD) :
    (dat0 V c).arrAt 3 cfg0.N = Cert.Sage.reluLayer (F := Ideal) (V c main_v19) (V c main_v20) (V c main_v21) :=
  (dat0 V c).arrAt_eq_of_cover 3 _ (fun t _ => flushed_eq V c t) cover

end Cert.Sage.Region0

end
-- ==== Proof.Region1.lean ====
/-
  What the second kernel region leaves in its output array, on the extended reals.

  The region runs a grid of ten points.  At point `t` the body loads rows `5000 t … 5000 t + 4999` of the activation
  array (%42), the whole transposed weight (%43) and the one-row bias (%44), and stores
  the maximum with zero of `Σ_k x[p,k] · w[k,q] + b[0,q]` at every entry `(p, q)` of its block of the output array (%45);
  the change of float format before the product is the identity here and the product into a zero accumulator is the
  plain sum.  The ten blocks tile the 50000 rows, so the output array ends as the dense layer of `Cert.Sage`
  applied to the three input arrays as the region found them — whatever those are (`V` is a parameter).
-/
import proofs.«129602_j9723805958531_1_alg».proof.Proof.Gen.KernelIdeal.Frame
import proofs.«129602_j9723805958531_1_alg».proof.Proof.LayerAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Sage.Region1

open Idealize.ShloMosaic Idealize.ShloMosaic.TcCoe Idealize.ShloMosaic.ValueIdx Idealize.SL.Sem
open Cert.KernelIdeal Cert.KernelIdeal.Gen
open Idealize.ShloMosaic.Pipeline (Dat Cfg Window)

/-! ## The body's matrix product at an entry -/

theorem lhs0 (i : S5000x128.Idx) (r : dot_S5000x128_S128x128_S5000x128_1_0_0_1_n_n.contr.Idx) : (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1 (i : S5000x128.Idx) (r : dot_S5000x128_S128x128_S5000x128_1_0_0_1_n_n.contr.Idx) : (dot_S5000x128_S128x128_S5000x128_1_0_0_1_n_n.lhsIdx i r 1).val = (r ⟨0, by decide⟩).val :=
  dot_S5000x128_S128x128_S5000x128_1_0_0_1_n_n.lhsIdx_val_of_single rfl i r
theorem rhs0 (i : S5000x128.Idx) (r : dot_S5000x128_S128x128_S5000x128_1_0_0_1_n_n.contr.Idx) : (dot_S5000x128_S128x128_S5000x128_1_0_0_1_n_n.rhsIdx i r 0).val = (r ⟨0, by decide⟩).val :=
  dot_S5000x128_S128x128_S5000x128_1_0_0_1_n_n.rhsIdx_val_of_single rfl i r
theorem rhs1 (i : S5000x128.Idx) (r : dot_S5000x128_S128x128_S5000x128_1_0_0_1_n_n.contr.Idx) : (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(p, q)` of what the body stores: `max (Σ_k x0[p,k] · x1[k,q] + x2[0,q], 0)` of the three loaded blocks. -/
theorem pay_apply (x0 : Vec Ideal S5000x128 .f32) (x1 : Vec Ideal S128x128 .f32) (x2 : Vec Ideal S1x128 .f32)
    (p : Fin 5000) (q : Fin 128) :
    k1_pay1 (F := Ideal) x0 x1 x2 (ix2 p q)
      = FloatOps.maximumf (F := Ideal) (φ := .f32)
          (FloatOps.addf (F := Ideal) (φ := .f32) (∑ k : Fin 128, x0 (ix2 p k) * x1 (ix2 k q)) (x2 (ix2 (0 : Fin 1) q)))
          (FloatOps.ofBits (F := Ideal) .f32 0x00000000#32) := by
  unfold k1_pay1
  rw [shapeCast_self, shapeCast_self, shapeCast_self]
  show FloatOps.maximumf (F := Ideal) (φ := .f32) (FloatOps.addf (F := Ideal) (φ := .f32)
      (FloatOps.matmul dot_S5000x128_S128x128_S5000x128_1_0_0_1_n_n none (truncf (F := Ideal) .bf16 x0 bitsLt_bf16_f32) (truncf (F := Ideal) .bf16 x1 bitsLt_bf16_f32)
        (constant S5000x128 .f32 0x00000000#32) (ix2 p q))
      (broadcastTo S5000x128 x2 broadcasts_S1x128_S5000x128 (ix2 p q))) _ = _
  rw [Ideal.matmul_constant_zero_apply, ValueIdx.broadcastTo_1b_ab_apply,
    ← Equiv.sum_comp (ValueIdx.contrEquiv1 dot_S5000x128_S128x128_S5000x128_1_0_0_1_n_n 128 rfl rfl).symm]
  refine congrArg (fun s => FloatOps.maximumf (F := Ideal) (φ := .f32) (FloatOps.addf (F := Ideal) (φ := .f32) s _) _) ?_
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs0 _ _
    | ⟨1, _⟩ => exact (lhs1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs0 _ _).trans hk
    | ⟨1, _⟩ => exact rhs1 _ _)
  rw [el, er]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid of ten points: the activation block and the output block move down the rows with
    the point; the weight and the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the block at point `t` is row `5000 t + p` of the array. -/
def row (t : Fin cfg1.N) (p : Fin 5000) : Fin 50000 :=
  ⟨t.val * 5000 + p.val, by have ht : t.val < 10 := t.isLt; have := p.isLt; omega⟩

theorem blk0_read (c : Dev nD) (t : Fin cfg1.N) (p : Fin 5000) (k : Fin 128) :
    iblk1 V c 0 t (ix2 p k) = V c main_v42 (ix2 (row t p) k) := by
  show V c main_v42 (((cfg1.win 0).blk t).view.emb (ix2 p k)) = _
  refine congrArg (V c main_v42) ?_
  obtain ⟨e0, e1, -⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

theorem blk1_read (c : Dev nD) (t : Fin cfg1.N) (k : Fin 128) (q : Fin 128) :
    iblk1 V c 1 t (ix2 k q) = V c main_v43 (ix2 k q) := by
  show V c main_v43 (((cfg1.win 1).blk t).view.emb (ix2 k q)) = _
  refine congrArg (V c main_v43) ?_
  obtain ⟨-, -, e0, e1, -⟩ := idx_facts t
  funext a; apply Fin.ext
  match a with
  | ⟨0, _⟩ => show win1_1.index t (0 : Fin 2) * 128 + 1 * k.val = k.val; omega
  | ⟨1, _⟩ => show win1_1.index t (1 : Fin 2) * 128 + 1 * q.val = q.val; omega

theorem blk2_read (c : Dev nD) (t : Fin cfg1.N) (q : Fin 128) :
    iblk1 V c 2 t (ix2 (0 : Fin 1) q) = V c main_v44 (ix2 (0 : Fin 1) q) := by
  show V c main_v44 (((cfg1.win 2).blk t).view.emb (ix2 (0 : Fin 1) q)) = _
  refine congrArg (V c main_v44) ?_
  obtain ⟨-, -, -, -, e0, e1, -⟩ := idx_facts t
  funext a; apply Fin.ext
  match a with
  | ⟨0, _⟩ => show win1_2.index t (0 : Fin 2) * 1 + 1 * 0 = 0; omega
  | ⟨1, _⟩ => show win1_2.index t (1 : Fin 2) * 128 + 1 * q.val = q.val; omega

theorem out_emb (t : Fin cfg1.N) (p : Fin 5000) (q : Fin 128) :
    ((cfg1.win 3).blk t).view.emb (ix2 p q) = ix2 (row t p) q := by
  obtain ⟨-, -, -, -, -, -, e0, e1⟩ := idx_facts t
  funext a; apply Fin.ext
  match a with
  | ⟨0, _⟩ => show win1_3.index t (0 : Fin 2) * 5000 + 1 * p.val = t.val * 5000 + p.val; omega
  | ⟨1, _⟩ => show win1_3.index t (1 : Fin 2) * 128 + 1 * q.val = q.val; omega

/-- What point `t` writes back is block `t` of the layer applied to the region's three input arrays. -/
theorem flushed_eq (c : Dev nD) (t : Fin cfg1.N) :
    (dat1 V c).flushed 3 t = ((cfg1.win 3).blk t).view.read (Elt Ideal)
      (Cert.Sage.reluLayer (F := Ideal) (V c main_v42) (V c main_v43) (V c main_v44)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (ix2 p q)
    = Cert.Sage.reluLayer (F := Ideal) (V c main_v42) (V c main_v43) (V c main_v44) (((cfg1.win 3).blk t).view.emb (ix2 p q))
  refine (pay_apply (iblk1 V c 0 t) (iblk1 V c 1 t) (iblk1 V c 2 t) p q).trans ?_
  rw [out_emb t p q, Cert.Sage.reluLayer_apply, blk2_read V c t q]
  refine congrArg (fun s => FloatOps.maximumf (F := Ideal) (φ := .f32) (FloatOps.addf (F := Ideal) (φ := .f32) s _) _) ?_
  refine Finset.sum_congr rfl fun k _ => ?_
  rw [blk0_read V c t p k, blk1_read V c t k q]

/-- An index of the array is in point `t`'s block iff each coordinate is in the block's range on its axis. -/
theorem mem_blk (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v45).slice (win1_3.rect t)).set ↔ _
  rw [View.set_slice_whole, Rect.mem_set_unit]
  exact Iff.rfl

/-- The ten blocks of 5000 rows tile the 50000 rows: row `r` lies in the block of point `r / 5000`. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hlt : (i 0).val / 5000 < 10 := by omega
  obtain ⟨-, -, -, -, -, -, e0, e1⟩ := idx_facts ⟨(i 0).val / 5000, hlt⟩
  have ht : (⟨(i 0).val / 5000, hlt⟩ : Fin cfg1.N).val = (i 0).val / 5000 := rfl
  refine ⟨⟨(i 0).val / 5000, hlt⟩, flush1_3 _, ?_⟩
  rw [mem_blk]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    omega
  | ⟨1, _⟩ =>
    show win1_3.index ⟨(i 0).val / 5000, hlt⟩ (1 : Fin 2) * 128 ≤ (i 1).val
      ∧ (i 1).val < win1_3.index ⟨(i 0).val / 5000, hlt⟩ (1 : Fin 2) * 128 + 128
    omega

/-- THE REGION'S RESULT: after the ten points the output array is the layer applied to the three input arrays
    as the region found them. -/
theorem array_eq (c : Dev nD) :
    (dat1 V c).arrAt 3 cfg1.N = Cert.Sage.reluLayer (F := Ideal) (V c main_v42) (V c main_v43) (V c main_v44) :=
  (dat1 V c).arrAt_eq_of_cover 3 _ (fun t _ => flushed_eq V c t) cover

end Cert.Sage.Region1

end
-- ==== Proof.Region2.lean ====
/-
  What the third kernel region leaves in its output array, on the extended reals.

  The region runs a grid of ten points.  At point `t` the body loads rows `5000 t … 5000 t + 4999` of the activation
  array (%65), the whole transposed weight (%66 (128 by 64)) and the one-row bias (%67 (64 entries)), and stores
  the logistic function of `Σ_k x[p,k] · w[k,q] + b[0,q]` at every entry `(p, q)` of its block of the output array (%68 (64 columns));
  the change of float format before the product is the identity here and the product into a zero accumulator is the
  plain sum.  The ten blocks tile the 50000 rows, so the output array ends as the dense layer of `Cert.Sage`
  applied to the three input arrays as the region found them — whatever those are (`V` is a parameter).
-/
import proofs.«129602_j9723805958531_1_alg».proof.Proof.Gen.KernelIdeal.Frame
import proofs.«129602_j9723805958531_1_alg».proof.Proof.LayerAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Sage.Region2

open Idealize.ShloMosaic Idealize.ShloMosaic.TcCoe Idealize.ShloMosaic.ValueIdx Idealize.SL.Sem
open Cert.KernelIdeal Cert.KernelIdeal.Gen
open Idealize.ShloMosaic.Pipeline (Dat Cfg Window)

/-! ## The body's matrix product at an entry -/

theorem lhs0 (i : S5000x64.Idx) (r : dot_S5000x128_S128x64_S5000x64_1_0_0_1_n_n.contr.Idx) : (dot_S5000x128_S128x64_S5000x64_1_0_0_1_n_n.lhsIdx i r 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs1 (i : S5000x64.Idx) (r : dot_S5000x128_S128x64_S5000x64_1_0_0_1_n_n.contr.Idx) : (dot_S5000x128_S128x64_S5000x64_1_0_0_1_n_n.lhsIdx i r 1).val = (r ⟨0, by decide⟩).val :=
  dot_S5000x128_S128x64_S5000x64_1_0_0_1_n_n.lhsIdx_val_of_single rfl i r
theorem rhs0 (i : S5000x64.Idx) (r : dot_S5000x128_S128x64_S5000x64_1_0_0_1_n_n.contr.Idx) : (dot_S5000x128_S128x64_S5000x64_1_0_0_1_n_n.rhsIdx i r 0).val = (r ⟨0, by decide⟩).val :=
  dot_S5000x128_S128x64_S5000x64_1_0_0_1_n_n.rhsIdx_val_of_single rfl i r
theorem rhs1 (i : S5000x64.Idx) (r : dot_S5000x128_S128x64_S5000x64_1_0_0_1_n_n.contr.Idx) : (dot_S5000x128_S128x64_S5000x64_1_0_0_1_n_n.rhsIdx i r 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry `(p, q)` of what the body stores: the logistic function of `Σ_k x0[p,k] · x1[k,q] + x2[0,q]` of the three loaded blocks. -/
theorem pay_apply (x0 : Vec Ideal S5000x128 .f32) (x1 : Vec Ideal S128x64 .f32) (x2 : Vec Ideal S1x64 .f32)
    (p : Fin 5000) (q : Fin 64) :
    k2_pay1 (F := Ideal) x0 x1 x2 (ix2 p q)
      = FloatOps.logistic (F := Ideal) (φ := .f32)
          (FloatOps.addf (F := Ideal) (φ := .f32) (∑ k : Fin 128, x0 (ix2 p k) * x1 (ix2 k q)) (x2 (ix2 (0 : Fin 1) q))) := by
  unfold k2_pay1
  rw [shapeCast_self, shapeCast_self, shapeCast_self]
  show FloatOps.logistic (F := Ideal) (φ := .f32) (FloatOps.addf (F := Ideal) (φ := .f32)
      (FloatOps.matmul dot_S5000x128_S128x64_S5000x64_1_0_0_1_n_n none (truncf (F := Ideal) .bf16 x0 bitsLt_bf16_f32) (truncf (F := Ideal) .bf16 x1 bitsLt_bf16_f32)
        (constant S5000x64 .f32 0x00000000#32) (ix2 p q))
      (broadcastTo S5000x64 x2 broadcasts_S1x64_S5000x64 (ix2 p q))) = _
  rw [Ideal.matmul_constant_zero_apply, ValueIdx.broadcastTo_1b_ab_apply,
    ← Equiv.sum_comp (ValueIdx.contrEquiv1 dot_S5000x128_S128x64_S5000x64_1_0_0_1_n_n 128 rfl rfl).symm]
  refine congrArg (fun s => FloatOps.logistic (F := Ideal) (φ := .f32) (FloatOps.addf (F := Ideal) (φ := .f32) s _)) ?_
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs0 _ _
    | ⟨1, _⟩ => exact (lhs1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs0 _ _).trans hk
    | ⟨1, _⟩ => exact rhs1 _ _)
  rw [el, er]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid of ten points: the activation block and the output block move down the rows with
    the point; the weight and the bias stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of the block at point `t` is row `5000 t + p` of the array. -/
def row (t : Fin cfg2.N) (p : Fin 5000) : Fin 50000 :=
  ⟨t.val * 5000 + p.val, by have ht : t.val < 10 := t.isLt; have := p.isLt; omega⟩

theorem blk0_read (c : Dev nD) (t : Fin cfg2.N) (p : Fin 5000) (k : Fin 128) :
    iblk2 V c 0 t (ix2 p k) = V c main_v65 (ix2 (row t p) k) := by
  show V c main_v65 (((cfg2.win 0).blk t).view.emb (ix2 p k)) = _
  refine congrArg (V c main_v65) ?_
  obtain ⟨e0, e1, -⟩ := idx_facts t
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

theorem blk1_read (c : Dev nD) (t : Fin cfg2.N) (k : Fin 128) (q : Fin 64) :
    iblk2 V c 1 t (ix2 k q) = V c main_v66 (ix2 k q) := by
  show V c main_v66 (((cfg2.win 1).blk t).view.emb (ix2 k q)) = _
  refine congrArg (V c main_v66) ?_
  obtain ⟨-, -, e0, e1, -⟩ := idx_facts t
  funext a; apply Fin.ext
  match a with
  | ⟨0, _⟩ => show win2_1.index t (0 : Fin 2) * 128 + 1 * k.val = k.val; omega
  | ⟨1, _⟩ => show win2_1.index t (1 : Fin 2) * 64 + 1 * q.val = q.val; omega

theorem blk2_read (c : Dev nD) (t : Fin cfg2.N) (q : Fin 64) :
    iblk2 V c 2 t (ix2 (0 : Fin 1) q) = V c main_v67 (ix2 (0 : Fin 1) q) := by
  show V c main_v67 (((cfg2.win 2).blk t).view.emb (ix2 (0 : Fin 1) q)) = _
  refine congrArg (V c main_v67) ?_
  obtain ⟨-, -, -, -, e0, e1, -⟩ := idx_facts t
  funext a; apply Fin.ext
  match a with
  | ⟨0, _⟩ => show win2_2.index t (0 : Fin 2) * 1 + 1 * 0 = 0; omega
  | ⟨1, _⟩ => show win2_2.index t (1 : Fin 2) * 64 + 1 * q.val = q.val; omega

theorem out_emb (t : Fin cfg2.N) (p : Fin 5000) (q : Fin 64) :
    ((cfg2.win 3).blk t).view.emb (ix2 p q) = ix2 (row t p) q := by
  obtain ⟨-, -, -, -, -, -, e0, e1⟩ := idx_facts t
  funext a; apply Fin.ext
  match a with
  | ⟨0, _⟩ => show win2_3.index t (0 : Fin 2) * 5000 + 1 * p.val = t.val * 5000 + p.val; omega
  | ⟨1, _⟩ => show win2_3.index t (1 : Fin 2) * 64 + 1 * q.val = q.val; omega

/-- What point `t` writes back is block `t` of the layer applied to the region's three input arrays. -/
theorem flushed_eq (c : Dev nD) (t : Fin cfg2.N) :
    (dat2 V c).flushed 3 t = ((cfg2.win 3).blk t).view.read (Elt Ideal)
      (Cert.Sage.sigLayer (F := Ideal) (V c main_v65) (V c main_v66) (V c main_v67)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x64) hz, View.ld_unit_zero (S := S1x64) hz]
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (iblk2 V c 2 t) (ix2 p q)
    = Cert.Sage.sigLayer (F := Ideal) (V c main_v65) (V c main_v66) (V c main_v67) (((cfg2.win 3).blk t).view.emb (ix2 p q))
  refine (pay_apply (iblk2 V c 0 t) (iblk2 V c 1 t) (iblk2 V c 2 t) p q).trans ?_
  rw [out_emb t p q, Cert.Sage.sigLayer_apply, blk2_read V c t q]
  refine congrArg (fun s => FloatOps.logistic (F := Ideal) (φ := .f32) (FloatOps.addf (F := Ideal) (φ := .f32) s _)) ?_
  refine Finset.sum_congr rfl fun k _ => ?_
  rw [blk0_read V c t p k, blk1_read V c t k q]

/-- An index of the array is in point `t`'s block iff each coordinate is in the block's range on its axis. -/
theorem mem_blk (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v68).slice (win2_3.rect t)).set ↔ _
  rw [View.set_slice_whole, Rect.mem_set_unit]
  exact Iff.rfl

/-- The ten blocks of 5000 rows tile the 50000 rows: row `r` lies in the block of point `r / 5000`. -/
theorem cover (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hlt : (i 0).val / 5000 < 10 := by omega
  obtain ⟨-, -, -, -, -, -, e0, e1⟩ := idx_facts ⟨(i 0).val / 5000, hlt⟩
  have ht : (⟨(i 0).val / 5000, hlt⟩ : Fin cfg2.N).val = (i 0).val / 5000 := rfl
  refine ⟨⟨(i 0).val / 5000, hlt⟩, flush2_3 _, ?_⟩
  rw [mem_blk]
  intro a
  match a with
  | ⟨0, _⟩ =>
    show win2_3.index ⟨(i 0).val / 5000, hlt⟩ (0 : Fin 2) * 5000 ≤ (i 0).val
      ∧ (i 0).val < win2_3.index ⟨(i 0).val / 5000, hlt⟩ (0 : Fin 2) * 5000 + 5000
    omega
  | ⟨1, _⟩ =>
    show win2_3.index ⟨(i 0).val / 5000, hlt⟩ (1 : Fin 2) * 64 ≤ (i 1).val
      ∧ (i 1).val < win2_3.index ⟨(i 0).val / 5000, hlt⟩ (1 : Fin 2) * 64 + 64
    omega

/-- THE REGION'S RESULT: after the ten points the output array is the layer applied to the three input arrays
    as the region found them. -/
theorem array_eq (c : Dev nD) :
    (dat2 V c).arrAt 3 cfg2.N = Cert.Sage.sigLayer (F := Ideal) (V c main_v65) (V c main_v66) (V c main_v67) :=
  (dat2 V c).arrAt_eq_of_cover 3 _ (fun t _ => flushed_eq V c t) cover

end Cert.Sage.Region2

end
-- ==== Proof.Fold.lean ====
/-
  The kernel program's result buffer, followed back through @main.

  @main is three stretches of host operations, each followed by a kernel region.  Every stretch computes, from the
  previous layer's output (the input features for the first), the neighbourhood mean `Cert.Sage.mean`, and lays out
  that layer's weight (transposed) and bias (as one row); the region that follows leaves the dense layer of those
  three arrays in its output array.  Reading the valuations at the six boundaries one after the other, the result
  buffer ends holding the three-layer network `Cert.Sage.net` of the arguments.
-/
import proofs.«129602_j9723805958531_1_alg».proof.Proof.Gen.KernelIdeal.Frame
import proofs.«129602_j9723805958531_1_alg».proof.Proof.Region0
import proofs.«129602_j9723805958531_1_alg».proof.Proof.Region1
import proofs.«129602_j9723805958531_1_alg».proof.Proof.Region2
import proofs.«129602_j9723805958531_1_alg».proof.Proof.Spec
import Idealize.ShloMosaic.Lib.StableHlo.Run

set_option maxRecDepth 16384

noncomputable section

namespace Cert.Sage.Fold

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The three stretches of host operations, from any contents `Vl` of the buffers -/

set_option maxHeartbeats 4000000 in
/-- The stretch's first result: the neighbourhood mean of the previous layer's output. -/
theorem stretch0_h (Vl : Valuation τ sig (Elt Ideal)) :
    StableHlo.after hostOps0 Vl (Proc.devRef .tc main_v19)
      = Cert.Sage.mean (F := Ideal) (Vl (Proc.devRef .tc main_arg0)) (Vl (Proc.devRef .tc main_arg1)) (Vl (Proc.devRef .tc main_arg2)) := by
  unfold Cert.Sage.mean
  after_results_simp
  rfl

set_option maxHeartbeats 4000000 in
/-- The layer's weight, transposed. -/
theorem stretch0_w (Vl : Valuation τ sig (Elt Ideal)) :
    StableHlo.after hostOps0 Vl (Proc.devRef .tc main_v20)
      = transpose S128x128 [1, 0] (Vl (Proc.devRef .tc main_arg3)) transposes_S128x128_S128x128_1_0 := by
  after_results_simp <;> rfl

set_option maxHeartbeats 4000000 in
/-- The layer's bias, as one row. -/
theorem stretch0_b (Vl : Valuation τ sig (Elt Ideal)) :
    StableHlo.after hostOps0 Vl (Proc.devRef .tc main_v21)
      = shapeCast S1x128 (Vl (Proc.devRef .tc main_arg4)) shapeCasts_S128_S1x128 := by
  after_results_simp <;> rfl

set_option maxHeartbeats 4000000 in
/-- The stretch's first result: the neighbourhood mean of the previous layer's output. -/
theorem stretch1_h (Vl : Valuation τ sig (Elt Ideal)) :
    StableHlo.after hostOps1 Vl (Proc.devRef .tc main_v42)
      = Cert.Sage.mean (F := Ideal) (Vl (Proc.devRef .tc main_v22)) (Vl (Proc.devRef .tc main_arg1)) (Vl (Proc.devRef .tc main_arg2)) := by
  unfold Cert.Sage.mean
  after_results_simp
  rfl

set_option maxHeartbeats 4000000 in
/-- The layer's weight, transposed. -/
theorem stretch1_w (Vl : Valuation τ sig (Elt Ideal)) :
    StableHlo.after hostOps1 Vl (Proc.devRef .tc main_v43)
      = transpose S128x128 [1, 0] (Vl (Proc.devRef .tc main_arg5)) transposes_S128x128_S128x128_1_0 := by
  after_results_simp <;> rfl

set_option maxHeartbeats 4000000 in
/-- The layer's bias, as one row. -/
theorem stretch1_b (Vl : Valuation τ sig (Elt Ideal)) :
    StableHlo.after hostOps1 Vl (Proc.devRef .tc main_v44)
      = shapeCast S1x128 (Vl (Proc.devRef .tc main_arg6)) shapeCasts_S128_S1x128 := by
  after_results_simp <;> rfl

set_option maxHeartbeats 4000000 in
/-- The stretch's first result: the neighbourhood mean of the previous layer's output. -/
theorem stretch2_h (Vl : Valuation τ sig (Elt Ideal)) :
    StableHlo.after hostOps2 Vl (Proc.devRef .tc main_v65)
      = Cert.Sage.mean (F := Ideal) (Vl (Proc.devRef .tc main_v45)) (Vl (Proc.devRef .tc main_arg1)) (Vl (Proc.devRef .tc main_arg2)) := by
  unfold Cert.Sage.mean
  after_results_simp
  rfl

set_option maxHeartbeats 4000000 in
/-- The layer's weight, transposed. -/
theorem stretch2_w (Vl : Valuation τ sig (Elt Ideal)) :
    StableHlo.after hostOps2 Vl (Proc.devRef .tc main_v66)
      = transpose S128x64 [1, 0] (Vl (Proc.devRef .tc main_arg7)) transposes_S64x128_S128x64_1_0 := by
  after_results_simp <;> rfl

set_option maxHeartbeats 4000000 in
/-- The layer's bias, as one row. -/
theorem stretch2_b (Vl : Valuation τ sig (Elt Ideal)) :
    StableHlo.after hostOps2 Vl (Proc.devRef .tc main_v67)
      = shapeCast S1x64 (Vl (Proc.devRef .tc main_arg8)) shapeCasts_S64_S1x64 := by
  after_results_simp <;> rfl

/-! A stretch leaves the arguments it does not write as they were. -/

set_option maxHeartbeats 4000000 in
theorem stretch0_arg1 (Vl : Valuation τ sig (Elt Ideal)) :
    StableHlo.after hostOps0 Vl (Proc.devRef .tc main_arg1) = Vl (Proc.devRef .tc main_arg1) := by
  after_results_simp <;> rfl

set_option maxHeartbeats 4000000 in
theorem stretch0_arg2 (Vl : Valuation τ sig (Elt Ideal)) :
    StableHlo.after hostOps0 Vl (Proc.devRef .tc main_arg2) = Vl (Proc.devRef .tc main_arg2) := by
  after_results_simp <;> rfl

set_option maxHeartbeats 4000000 in
theorem stretch0_arg5 (Vl : Valuation τ sig (Elt Ideal)) :
    StableHlo.after hostOps0 Vl (Proc.devRef .tc main_arg5) = Vl (Proc.devRef .tc main_arg5) := by
  after_results_simp <;> rfl

set_option maxHeartbeats 4000000 in
theorem stretch0_arg6 (Vl : Valuation τ sig (Elt Ideal)) :
    StableHlo.after hostOps0 Vl (Proc.devRef .tc main_arg6) = Vl (Proc.devRef .tc main_arg6) := by
  after_results_simp <;> rfl

set_option maxHeartbeats 4000000 in
theorem stretch0_arg7 (Vl : Valuation τ sig (Elt Ideal)) :
    StableHlo.after hostOps0 Vl (Proc.devRef .tc main_arg7) = Vl (Proc.devRef .tc main_arg7) := by
  after_results_simp <;> rfl

set_option maxHeartbeats 4000000 in
theorem stretch0_arg8 (Vl : Valuation τ sig (Elt Ideal)) :
    StableHlo.after hostOps0 Vl (Proc.devRef .tc main_arg8) = Vl (Proc.devRef .tc main_arg8) := by
  after_results_simp <;> rfl

set_option maxHeartbeats 4000000 in
theorem stretch1_arg1 (Vl : Valuation τ sig (Elt Ideal)) :
    StableHlo.after hostOps1 Vl (Proc.devRef .tc main_arg1) = Vl (Proc.devRef .tc main_arg1) := by
  after_results_simp <;> rfl

set_option maxHeartbeats 4000000 in
theorem stretch1_arg2 (Vl : Valuation τ sig (Elt Ideal)) :
    StableHlo.after hostOps1 Vl (Proc.devRef .tc main_arg2) = Vl (Proc.devRef .tc main_arg2) := by
  after_results_simp <;> rfl

set_option maxHeartbeats 4000000 in
theorem stretch1_arg7 (Vl : Valuation τ sig (Elt Ideal)) :
    StableHlo.after hostOps1 Vl (Proc.devRef .tc main_arg7) = Vl (Proc.devRef .tc main_arg7) := by
  after_results_simp <;> rfl

set_option maxHeartbeats 4000000 in
theorem stretch1_arg8 (Vl : Valuation τ sig (Elt Ideal)) :
    StableHlo.after hostOps1 Vl (Proc.devRef .tc main_arg8) = Vl (Proc.devRef .tc main_arg8) := by
  after_results_simp <;> rfl

/-! ## The layers' outputs, named -/

/-- The first layer's output as a function of the launch memory. -/
def layer0 (c : Dev nD) : (⟨S50000x128, .f32⟩ : BufTy).Contents (Elt Ideal) :=
  Cert.Sage.reluLayer (F := Ideal) (Cert.Sage.mean (F := Ideal) (m ((c : Thread nD τ).loc main_arg0)) (m ((c : Thread nD τ).loc main_arg1)) (m ((c : Thread nD τ).loc main_arg2)))
    (transpose S128x128 [1, 0] (m ((c : Thread nD τ).loc main_arg3)) transposes_S128x128_S128x128_1_0)
    (shapeCast S1x128 (m ((c : Thread nD τ).loc main_arg4)) shapeCasts_S128_S1x128)

/-- The second layer's output. -/
def layer1 (c : Dev nD) : (⟨S50000x128, .f32⟩ : BufTy).Contents (Elt Ideal) :=
  Cert.Sage.reluLayer (F := Ideal) (Cert.Sage.mean (F := Ideal) (layer0 m c) (m ((c : Thread nD τ).loc main_arg1)) (m ((c : Thread nD τ).loc main_arg2)))
    (transpose S128x128 [1, 0] (m ((c : Thread nD τ).loc main_arg5)) transposes_S128x128_S128x128_1_0)
    (shapeCast S1x128 (m ((c : Thread nD τ).loc main_arg6)) shapeCasts_S128_S1x128)

/-- The third layer's output. -/
def layer2 (c : Dev nD) : (⟨S50000x64, .f32⟩ : BufTy).Contents (Elt Ideal) :=
  Cert.Sage.sigLayer (F := Ideal) (Cert.Sage.mean (F := Ideal) (layer1 m c) (m ((c : Thread nD τ).loc main_arg1)) (m ((c : Thread nD τ).loc main_arg2)))
    (transpose S128x64 [1, 0] (m ((c : Thread nD τ).loc main_arg7)) transposes_S64x128_S128x64_1_0)
    (shapeCast S1x64 (m ((c : Thread nD τ).loc main_arg8)) shapeCasts_S64_S1x64)

/-! ## The boundaries, one after the other -/

/-- At the first region's exit an argument the first stretch does not write is as launched. -/
theorem W2_keep (c : Dev nD) (b : Ref sig .tc) (hb : ∀ w, Pipeline.arrRef spec0 w ≠ b)
    (h0 : StableHlo.after hostOps0 (W0 m ρ c) (Proc.devRef .tc b) = W0 m ρ c (Proc.devRef .tc b)) :
    W2 m ρ c (Proc.devRef .tc b) = m ((c : Thread nD τ).loc b) :=
  (W2_of_ne m ρ c b hb).trans h0

/-- At the second region's exit likewise. -/
theorem W4_keep (c : Dev nD) (b : Ref sig .tc) (hb0 : ∀ w, Pipeline.arrRef spec0 w ≠ b) (hb1 : ∀ w, Pipeline.arrRef spec1 w ≠ b)
    (h0 : StableHlo.after hostOps0 (W0 m ρ c) (Proc.devRef .tc b) = W0 m ρ c (Proc.devRef .tc b))
    (h1 : StableHlo.after hostOps1 (W2 m ρ c) (Proc.devRef .tc b) = W2 m ρ c (Proc.devRef .tc b)) :
    W4 m ρ c (Proc.devRef .tc b) = m ((c : Thread nD τ).loc b) :=
  (W4_of_ne m ρ c b hb1).trans (h1.trans (W2_keep m ρ c b hb0 h0))

/-- The first region's output array holds the first layer. -/
theorem out0 (c : Dev nD) : W2 m ρ c (Proc.devRef .tc main_v22) = layer0 m c := by
  refine (W2_arr m ρ c 3).trans ((Cert.Sage.Region0.array_eq (V1 m ρ) c).trans ?_)
  show Cert.Sage.reluLayer (F := Ideal) (StableHlo.after hostOps0 (W0 m ρ c) (Proc.devRef .tc main_v19))
    (StableHlo.after hostOps0 (W0 m ρ c) (Proc.devRef .tc main_v20)) (StableHlo.after hostOps0 (W0 m ρ c) (Proc.devRef .tc main_v21)) = _
  rw [stretch0_h, stretch0_w, stretch0_b]
  rfl

/-- The second region's output array holds the second layer. -/
theorem out1 (c : Dev nD) : W4 m ρ c (Proc.devRef .tc main_v45) = layer1 m c := by
  refine (W4_arr m ρ c 3).trans ((Cert.Sage.Region1.array_eq (V3 m ρ) c).trans ?_)
  show Cert.Sage.reluLayer (F := Ideal) (StableHlo.after hostOps1 (W2 m ρ c) (Proc.devRef .tc main_v42))
    (StableHlo.after hostOps1 (W2 m ρ c) (Proc.devRef .tc main_v43)) (StableHlo.after hostOps1 (W2 m ρ c) (Proc.devRef .tc main_v44)) = _
  rw [stretch1_h, stretch1_w, stretch1_b, out0 m ρ c,
    W2_keep m ρ c main_arg1 (by decide) (stretch0_arg1 _), W2_keep m ρ c main_arg2 (by decide) (stretch0_arg2 _),
    W2_keep m ρ c main_arg5 (by decide) (stretch0_arg5 _), W2_keep m ρ c main_arg6 (by decide) (stretch0_arg6 _)]
  rfl

/-- THE RESULT: the third region's output array — @main's result buffer — holds the third layer. -/
theorem out2 (c : Dev nD) : W6 m ρ c (Proc.devRef .tc main_v68) = layer2 m c := by
  refine (W6_arr m ρ c 3).trans ((Cert.Sage.Region2.array_eq (V5 m ρ) c).trans ?_)
  show Cert.Sage.sigLayer (F := Ideal) (StableHlo.after hostOps2 (W4 m ρ c) (Proc.devRef .tc main_v65))
    (StableHlo.after hostOps2 (W4 m ρ c) (Proc.devRef .tc main_v66)) (StableHlo.after hostOps2 (W4 m ρ c) (Proc.devRef .tc main_v67)) = _
  rw [stretch2_h, stretch2_w, stretch2_b, out1 m ρ c,
    W4_keep m ρ c main_arg1 (by decide) (by decide) (stretch0_arg1 _) (stretch1_arg1 _),
    W4_keep m ρ c main_arg2 (by decide) (by decide) (stretch0_arg2 _) (stretch1_arg2 _),
    W4_keep m ρ c main_arg7 (by decide) (by decide) (stretch0_arg7 _) (stretch1_arg7 _),
    W4_keep m ρ c main_arg8 (by decide) (by decide) (stretch0_arg8 _) (stretch1_arg8 _)]
  rfl

end Cert.Sage.Fold

end
-- ==== Proof.Bridge.lean ====
/-
  The kernel program's three layers are the network `Cert.Sage.net` of the arguments.

  The only difference of spelling between what the kernel program's host side hands its dense layers and what the
  reference's does is the bias: the kernel program reshapes the bias vector `b` to a [1, n] matrix, the reference
  broadcasts it into one.  Both are the matrix whose entry `(0, q)` is `b[q]`.
-/
import proofs.«129602_j9723805958531_1_alg».proof.Proof.Fold
import Idealize.ShloMosaic.Lib.Pipeline.Value
import Idealize.ShloMosaic.Lib.ValueIdx

noncomputable section

namespace Cert.Sage.Bridge

open Idealize.ShloMosaic Idealize.ShloMosaic.TcCoe Idealize.ShloMosaic.ValueIdx Idealize.SL.Sem

/-- A vector of 128 entries reshaped to one row is the vector broadcast into one row. -/
theorem biasRow128 (b : (⟨Cert.KernelIdeal.S128, .f32⟩ : BufTy).Contents (Elt Ideal)) :
    shapeCast Cert.KernelIdeal.S1x128 b Cert.KernelIdeal.Gen.shapeCasts_S128_S1x128
      = broadcastInDim Cert.ReferenceIdeal.S1x128 ![1] Cert.ReferenceIdeal.Gen.bcast_S128_S1x128_1 b := by
  funext i
  refine (shapeCast_addUnit_apply ![128] b Cert.KernelIdeal.Gen.shapeCasts_S128_S1x128 i).trans ?_
  refine (broadcastInDim_apply _ Cert.ReferenceIdeal.Gen.bcast_S128_S1x128_1 b i (fun a => i a.succ) (fun a => match a with
    | ⟨0, _⟩ => by show (i 1).val = if (128 : Nat) = 1 then 0 else (i 1).val; rw [if_neg (by decide)])).symm

/-- The same for 64 entries. -/
theorem biasRow64 (b : (⟨Cert.KernelIdeal.S64, .f32⟩ : BufTy).Contents (Elt Ideal)) :
    shapeCast Cert.KernelIdeal.S1x64 b Cert.KernelIdeal.Gen.shapeCasts_S64_S1x64
      = broadcastInDim Cert.ReferenceIdeal.S1x64 ![1] Cert.ReferenceIdeal.Gen.bcast_S64_S1x64_1 b := by
  funext i
  refine (shapeCast_addUnit_apply ![64] b Cert.KernelIdeal.Gen.shapeCasts_S64_S1x64 i).trans ?_
  refine (broadcastInDim_apply _ Cert.ReferenceIdeal.Gen.bcast_S64_S1x64_1 b i (fun a => i a.succ) (fun a => match a with
    | ⟨0, _⟩ => by show (i 1).val = if (64 : Nat) = 1 then 0 else (i 1).val; rw [if_neg (by decide)])).symm

variable (m : (ℓ : Loc Cert.KernelIdeal.nD Cert.KernelIdeal.τ Cert.KernelIdeal.sig) → Buf (Elt Ideal) ℓ)

/-- The third layer's output, as the kernel program computes it, is `net` of the arguments with each weight
    transposed and each bias broadcast into one row. -/
theorem layer2_eq (c : Dev Cert.KernelIdeal.nD) :
    Cert.Sage.Fold.layer2 m c
      = Cert.Sage.net (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2))
          (transpose Cert.ReferenceIdeal.S128x128 [1, 0] (m ((c : Thread Cert.KernelIdeal.nD Cert.KernelIdeal.τ).loc Cert.KernelIdeal.main_arg3)) Cert.ReferenceIdeal.Gen.transposes_S128x128_S128x128_1_0)
          (broadcastInDim Cert.ReferenceIdeal.S1x128 ![1] Cert.ReferenceIdeal.Gen.bcast_S128_S1x128_1 (m ((c : Thread Cert.KernelIdeal.nD Cert.KernelIdeal.τ).loc Cert.KernelIdeal.main_arg4)))
          (transpose Cert.ReferenceIdeal.S128x128 [1, 0] (m ((c : Thread Cert.KernelIdeal.nD Cert.KernelIdeal.τ).loc Cert.KernelIdeal.main_arg5)) Cert.ReferenceIdeal.Gen.transposes_S128x128_S128x128_1_0)
          (broadcastInDim Cert.ReferenceIdeal.S1x128 ![1] Cert.ReferenceIdeal.Gen.bcast_S128_S1x128_1 (m ((c : Thread Cert.KernelIdeal.nD Cert.KernelIdeal.τ).loc Cert.KernelIdeal.main_arg6)))
          (transpose Cert.ReferenceIdeal.S128x64 [1, 0] (m ((c : Thread Cert.KernelIdeal.nD Cert.KernelIdeal.τ).loc Cert.KernelIdeal.main_arg7)) Cert.ReferenceIdeal.Gen.transposes_S64x128_S128x64_1_0)
          (broadcastInDim Cert.ReferenceIdeal.S1x64 ![1] Cert.ReferenceIdeal.Gen.bcast_S64_S1x64_1 (m ((c : Thread Cert.KernelIdeal.nD Cert.KernelIdeal.τ).loc Cert.KernelIdeal.main_arg8))) := by
  unfold Cert.Sage.Fold.layer2 Cert.Sage.Fold.layer1 Cert.Sage.Fold.layer0 Cert.Sage.net
  rw [biasRow128, biasRow128, biasRow64]

end Cert.Sage.Bridge

end
-- ==== Proof.RefNet.lean ====
/-
  The reference program's result, as the generated run states it, is the three-layer network `Cert.Sage.net` of the
  argument arrays, each weight transposed and each bias laid out as a one-row matrix: the run's composed term
  is that expression, operation for operation.
-/
import proofs.«129602_j9723805958531_1_alg».proof.Proof.Gen.ReferenceIdeal.Run
import proofs.«129602_j9723805958531_1_alg».proof.Proof.Spec

noncomputable section

namespace Cert.Sage.Ref

open Idealize.ShloMosaic Idealize.ShloMosaic.TcCoe Idealize.SL.Sem Cert.ReferenceIdeal
open Cert.ReferenceIdeal.Facts₀ Cert.ReferenceIdeal.Facts

variable {F : FTy → Type} [FloatOps F]

set_option maxRecDepth 8192 in
/-- The result array the reference ends with is `net` of the arguments. -/
theorem result_eq (m : (ℓ : Loc nD τ sig) → Buf (Elt F) ℓ) (c : Dev nD) :
    Cert.ReferenceIdeal.Value.res_main_v82 m c
      = Cert.Sage.net (m ((c.tc : Thread nD τ).loc main_arg0)) (m ((c.tc : Thread nD τ).loc main_arg1)) (m ((c.tc : Thread nD τ).loc main_arg2))
          (transpose S128x128 [1, 0] (m ((c.tc : Thread nD τ).loc main_arg3)) transposes_S128x128_S128x128_1_0)
          (broadcastInDim S1x128 ![1] bcast_S128_S1x128_1 (m ((c.tc : Thread nD τ).loc main_arg4)))
          (transpose S128x128 [1, 0] (m ((c.tc : Thread nD τ).loc main_arg5)) transposes_S128x128_S128x128_1_0)
          (broadcastInDim S1x128 ![1] bcast_S128_S1x128_1 (m ((c.tc : Thread nD τ).loc main_arg6)))
          (transpose S128x64 [1, 0] (m ((c.tc : Thread nD τ).loc main_arg7)) transposes_S64x128_S128x64_1_0)
          (broadcastInDim S1x64 ![1] bcast_S64_S1x64_1 (m ((c.tc : Thread nD τ).loc main_arg8))) := by
  unfold Cert.ReferenceIdeal.Value.res_main_v82 Cert.Sage.net Cert.Sage.sigLayer Cert.Sage.reluLayer Cert.Sage.mean
  rfl

end Cert.Sage.Ref

end
-- ==== Proof.lean ====
/-
  The certificate of a three-layer graph network: the Pallas program against its jnp reference, on the extended reals.

  Both programs compute, three times over, a neighbourhood mean followed by a dense layer.  The mean
  (`Cert.Sage.mean`: the sum of the in-neighbours' feature rows and the node's own, divided by the in-degree plus one)
  is the same host computation in both programs.  The dense layer `h · Wᵀ + b` followed by `max(·, 0)` (twice) or by the
  logistic function (last) is, in the reference, a host matrix product, a broadcast bias and the activation; in the
  Pallas program it is a kernel region over ten blocks of 5000 rows whose body forms the product of its block with the
  transposed weight, adds the bias row and applies the activation.  On the extended reals the change of float format
  before the kernel's product is the identity, both products are the plain sum over the contracted axis, and the
  kernel's logistic operation is the expression `1 / (1 + e^(-z))` the reference spells out; so the two sides are one
  function, `Cert.Sage.net` of the arguments.  No law that needs finiteness is used: the precondition is never opened.

    Spec      the network as whole-array functions: `mean`, `reluLayer`, `sigLayer`, `net`
    LayerAt   a dense layer read at an entry
    RefNet    the reference's result is `net` of the arguments
    Region0-2 each kernel region leaves the dense layer of its three input arrays in its output array
    KRun      the Pallas program's run, with its result buffer read
    Fold      the result buffer followed back through the three stretches of host operations and the three regions
    Bridge    a bias reshaped to one row is the bias broadcast into one row; the Pallas program's result is `net`
-/
import proofs.«129602_j9723805958531_1_alg».proof.Defs
import proofs.«129602_j9723805958531_1_alg».proof.Proof.Gen.Kernel
import proofs.«129602_j9723805958531_1_alg».proof.Proof.Gen.Kernel.Skeleton
import proofs.«129602_j9723805958531_1_alg».proof.Proof.Gen.Kernel.Launch
import proofs.«129602_j9723805958531_1_alg».proof.Proof.Gen.Kernel.Points
import proofs.«129602_j9723805958531_1_alg».proof.Proof.Gen.Kernel.Frame
import proofs.«129602_j9723805958531_1_alg».proof.Proof.Gen.KernelIdeal
import proofs.«129602_j9723805958531_1_alg».proof.Proof.Gen.KernelIdeal.Skeleton
import proofs.«129602_j9723805958531_1_alg».proof.Proof.Gen.KernelIdeal.Launch
import proofs.«129602_j9723805958531_1_alg».proof.Proof.Gen.KernelIdeal.Points
import proofs.«129602_j9723805958531_1_alg».proof.Proof.Gen.KernelIdeal.Frame
import proofs.«129602_j9723805958531_1_alg».proof.Proof.Gen.ReferenceIdeal
import proofs.«129602_j9723805958531_1_alg».proof.Proof.Gen.ReferenceIdeal.Run
import proofs.«129602_j9723805958531_1_alg».proof.Proof.Gen.ReferenceIdeal.Read
import proofs.«129602_j9723805958531_1_alg».proof.Proof.Gen.Pre_finite_inputs
import proofs.«129602_j9723805958531_1_alg».proof.Proof.KRun
import proofs.«129602_j9723805958531_1_alg».proof.Proof.Fold
import proofs.«129602_j9723805958531_1_alg».proof.Proof.Bridge
import proofs.«129602_j9723805958531_1_alg».proof.Proof.RefNet
import Idealize.ShloMosaic.Adequacy
import Idealize.ShloMosaic.Init

noncomputable section

namespace Cert.Proof

open Idealize.ShloMosaic Idealize.SL.Sem

/-- The Pallas program as printed runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the Pallas program was read on the extended reals. -/
theorem preserves : Cert.preserves_Kernel_KernelIdeal := trivial

/-- From memories that agree on the arguments both programs end with the result buffer at the network's third
    layer: the Pallas program by its run and the fold through its segments, the reference by its run, whose term is
    `net` of the arguments — the same function. -/
theorem algebraic : Cert.algebraic_KernelIdeal_ReferenceIdeal := by
  intro m ρ m' ρ' _ hagree
  refine ⟨fun c => Cert.Sage.Fold.layer2 m c, ?_, ?_⟩
  · exact (θ_run Cert.KernelIdeal.defs _ _).mono
      (fun r h c => ⟨(h c).1.trans (Cert.Sage.Fold.out2 m ρ c), (h c).2⟩) (Cert.Sage.KRun.run_out m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8⟩ := hagree c
    rw [Cert.Sage.Ref.result_eq, a0, a1, a2, a3, a4, a5, a6, a7, a8]
    exact (Cert.Sage.Bridge.layer2_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
